-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128x128 .f32) (main_arg6 : FVec F S128x128 .f32) (main_arg7 : FVec F S128 .f32) (main_arg8 : FVec F S128x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1250000 32) (main_arg2 : FVec F S64x128 .f32) (main_arg3 : FVec F S64x128 .f32) (main_arg4 : FVec F S128 .f32) (main_arg5 : FVec F S128x128 .f32) (main_arg6 : FVec F S128x128 .f32) (main_arg7 : FVec F S128 .f32) (main_arg8 : FVec F S128x64 .f32) (main_arg9 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1250000 : Shape := ⟨2, ![2, 1250000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S1250000x64 : Shape := ⟨2, ![1250000, 64]⟩
abbrev S100000x1 : Shape := ⟨2, ![100000, 1]⟩
abbrev S1x128 : Shape := ⟨2, ![1, 128]⟩
abbrev S100000x128 : Shape := ⟨2, ![100000, 128]⟩
abbrev S5000x64 : Shape := ⟨2, ![5000, 64]⟩
abbrev S5000x1 : Shape := ⟨2, ![5000, 1]⟩
abbrev S5000x128 : Shape := ⟨2, ![5000, 128]⟩
abbrev S1250000x128 : Shape := ⟨2, ![1250000, 128]⟩
abbrev S1x64 : Shape := ⟨2, ![1, 64]⟩

abbrev nBuf : Space → Nat
  | .hbm => 53
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x128, .f32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x1250000, .i32⟩
  | .hbm, ⟨11, _⟩ => ⟨S1250000, .i32⟩
  | .hbm, ⟨12, _⟩ => ⟨S1x1250000, .i32⟩
  | .hbm, ⟨13, _⟩ => ⟨S1250000, .i32⟩
  | .hbm, ⟨14, _⟩ => ⟨S_, .f32⟩
  | .hbm, ⟨15, _⟩ => ⟨S1250000, .f32⟩
  | .hbm, ⟨16, _⟩ => ⟨S_, .f32⟩
  | .hbm, ⟨17, _⟩ => ⟨S100000, .f32⟩
  | .hbm, ⟨18, _⟩ => ⟨S1250000x1, .i32⟩
  | .hbm, ⟨19, _⟩ => ⟨S100000, .f32⟩
  | .hbm, ⟨20, _⟩ => ⟨S_, .i32⟩
  | .hbm, ⟨21, _⟩ => ⟨S1250000, .i32⟩
  | .hbm, ⟨22, _⟩ => ⟨S1250000, .i1⟩
  | .hbm, ⟨23, _⟩ => ⟨S_, .i32⟩
  | .hbm, ⟨24, _⟩ => ⟨S1250000, .i32⟩
  | .hbm, ⟨25, _⟩ => ⟨S1250000, .i32⟩
  | .hbm, ⟨26, _⟩ => ⟨S1250000, .i32⟩
  | .hbm, ⟨27, _⟩ => ⟨S1250000x1, .i32⟩
  | .hbm, ⟨28, _⟩ => ⟨S1250000x64, .f32⟩
  | .hbm, ⟨29, _⟩ => ⟨S_, .f32⟩
  | .hbm, ⟨30, _⟩ => ⟨S100000x64, .f32⟩
  | .hbm, ⟨31, _⟩ => ⟨S1250000x1, .i32⟩
  | .hbm, ⟨32, _⟩ => ⟨S100000x64, .f32⟩
  | .hbm, ⟨33, _⟩ => ⟨S100000x1, .f32⟩
  | .hbm, ⟨34, _⟩ => ⟨S1x128, .f32⟩
  | .hbm, ⟨35, _⟩ => ⟨S100000x128, .f32⟩
  | .hbm, ⟨36, _⟩ => ⟨S_, .i32⟩
  | .hbm, ⟨37, _⟩ => ⟨S1250000, .i32⟩
  | .hbm, ⟨38, _⟩ => ⟨S1250000, .i1⟩
  | .hbm, ⟨39, _⟩ => ⟨S_, .i32⟩
  | .hbm, ⟨40, _⟩ => ⟨S1250000, .i32⟩
  | .hbm, ⟨41, _⟩ => ⟨S1250000, .i32⟩
  | .hbm, ⟨42, _⟩ => ⟨S1250000, .i32⟩
  | .hbm, ⟨43, _⟩ => ⟨S1250000x1, .i32⟩
  | .hbm, ⟨44, _⟩ => ⟨S1250000x128, .f32⟩
  | .hbm, ⟨45, _⟩ => ⟨S_, .f32⟩
  | .hbm, ⟨46, _⟩ => ⟨S100000x128, .f32⟩
  | .hbm, ⟨47, _⟩ => ⟨S1250000x1, .i32⟩
  | .hbm, ⟨48, _⟩ => ⟨S100000x128, .f32⟩
  | .hbm, ⟨49, _⟩ => ⟨S100000x1, .f32⟩
  | .hbm, ⟨50, _⟩ => ⟨S1x128, .f32⟩
  | .hbm, ⟨51, _⟩ => ⟨S1x64, .f32⟩
  | .hbm, ⟨52, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S64x128, .f32⟩
  | .local _ .vmem, ⟨7, _⟩ => ⟨S1x128, .f32⟩
  | .local _ .vmem, ⟨8, _⟩ => ⟨S64x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S128x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  shapeCasts_S100000_S100000x1 : S100000.ShapeCasts S100000x1
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S64_S1x64 : S64.ShapeCasts S1x64
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S5000x64_S64x128_S5000x128_1_0_0_1_n_n_wf : DotDims.WF S5000x64 S64x128 S5000x128 [1] [0] [0] [1] [] []
  gather_S100000x128_S1250000x1_S1250000x128_1_0_n_n_0_1_1128_wf : GatherDims.WF S100000x128 S1250000x1 S1250000x128 [1] [0] [] [0] [] 1 ![1, 128]
  scatter_S100000x128_S1250000x1_S1250000x128_1_0_0_1_wf : ScatterDims.WF S100000x128 S1250000x1 S1250000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x64.size a ≤ S128x64.size a
  hwx1_6 : ∀ i : grid1.Coords, EltTy.bits .f32 = 32 ∨ (Rect.block (s := S128x64) S128x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S100000x64.size a
  hwx1_8 : ∀ i : grid1.Coords, EltTy.bits .f32 = 32 ∨ (Rect.block (s := S100000x64) S5000x64.size (cc1_transform_8 i) (hinb1_8 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1250000x1_S1250000x128_1_0_n_n_0_1_1128 : GatherDims S100000x128 S1250000x1 S1250000x128 where
  offsetDims := [1]
  collapsedSliceDims := [0]
  operandBatchingDims := []
  startIndicesBatchingDims := []
  startIndexMap := [0]
  indexVectorDim := 1
  sliceSizes := ![1, 128]
  wf := gather_S100000x128_S1250000x1_S1250000x128_1_0_n_n_0_1_1128_wf
def scatter_S100000x128_S1250000x1_S1250000x128_1_0_0_1 : ScatterDims S100000x128 S1250000x1 S1250000x128 where
  updateWindowDims := [1]
  insertedWindowDims := [0]
  scatterDimsToOperandDims := [0]
  indexVectorDim := 1
  wf := scatter_S100000x128_S1250000x1_S1250000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v17) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v33) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v34) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1250000x128 : Shape := ⟨2, ![1250000, 128]⟩
abbrev S1x64 : Shape := ⟨2, ![1, 64]⟩

abbrev nBuf : Space → Nat
  | .hbm => 86
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x128, .f32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x1250000, .i32⟩
  | .hbm, ⟨11, _⟩ => ⟨S1250000, .i32⟩
  | .hbm, ⟨12, _⟩ => ⟨S1x1250000, .i32⟩
  | .hbm, ⟨13, _⟩ => ⟨S1250000, .i32⟩
  | .hbm, ⟨14, _⟩ => ⟨S_, .i32⟩
  | .hbm, ⟨15, _⟩ => ⟨S1250000, .i32⟩
  | .hbm, ⟨16, _⟩ => ⟨S1250000, .i1⟩
  | .hbm, ⟨17, _⟩ => ⟨S_, .i32⟩
  | .hbm, ⟨18, _⟩ => ⟨S1250000, .i32⟩
  | .hbm, ⟨19, _⟩ => ⟨S1250000, .i32⟩
  | .hbm, ⟨20, _⟩ => ⟨S1250000, .i32⟩
  | .hbm, ⟨21, _⟩ => ⟨S1250000x1, .i32⟩
  | .hbm, ⟨22, _⟩ => ⟨S1250000x64, .f32⟩
  | .hbm, ⟨23, _⟩ => ⟨S_, .f32⟩
  | .hbm, ⟨24, _⟩ => ⟨S100000x64, .f32⟩
  | .hbm, ⟨25, _⟩ => ⟨S1250000x1, .i32⟩
  | .hbm, ⟨26, _⟩ => ⟨S100000x64, .f32⟩
  | .hbm, ⟨27, _⟩ => ⟨S_, .f32⟩
  | .hbm, ⟨28, _⟩ => ⟨S1250000, .f32⟩
  | .hbm, ⟨29, _⟩ => ⟨S_, .f32⟩
  | .hbm, ⟨30, _⟩ => ⟨S100000, .f32⟩
  | .hbm, ⟨31, _⟩ => ⟨S1250000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1250000, .i32⟩
  | .hbm, ⟨50, _⟩ => ⟨S1250000, .i1⟩
  | .hbm, ⟨51, _⟩ => ⟨S_, .i32⟩
  | .hbm, ⟨52, _⟩ => ⟨S1250000, .i32⟩
  | .hbm, ⟨53, _⟩ => ⟨S1250000, .i32⟩
  | .hbm, ⟨54, _⟩ => ⟨S1250000, .i32⟩
  | .hbm, ⟨55, _⟩ => ⟨S1250000x1, .i32⟩
  | .hbm, ⟨56, _⟩ => ⟨S1250000x128, .f32⟩
  | .hbm, ⟨57, _⟩ => ⟨S_, .f32⟩
  | .hbm, ⟨58, _⟩ => ⟨S100000x128, .f32⟩
  | .hbm, ⟨59, _⟩ => ⟨S1250000x1, .i32⟩
  | .hbm, ⟨60, _⟩ => ⟨S100000x128, .f32⟩
  | .hbm, ⟨61, _⟩ => ⟨S_, .f32⟩
  | .hbm, ⟨62, _⟩ => ⟨S1250000, .f32⟩
  | .hbm, ⟨63, _⟩ => ⟨S_, .f32⟩
  | .hbm, ⟨64, _⟩ => ⟨S100000, .f32⟩
  | .hbm, ⟨65, _⟩ => ⟨S1250000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100000x128, .f32⟩
  | .hbm, ⟨81, _⟩ => ⟨S100000x128, .f32⟩
  | .hbm, ⟨82, _⟩ => ⟨S100000x64, .f32⟩
  | .hbm, ⟨83, _⟩ => ⟨S1x64, .f32⟩
  | .hbm, ⟨84, _⟩ => ⟨S100000x64, .f32⟩
  | .hbm, ⟨85, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x64_S64x128_S100000x128_1_0_0_1_n_n_wf : DotDims.WF S100000x64 S64x128 S100000x128 [1] [0] [0] [1] [] []
  gather_S100000x128_S1250000x1_S1250000x128_1_0_n_n_0_1_1128_wf : GatherDims.WF S100000x128 S1250000x1 S1250000x128 [1] [0] [] [0] [] 1 ![1, 128]
  scatter_S100000x128_S1250000x1_S1250000x128_1_0_0_1_wf : ScatterDims.WF S100000x128 S1250000x1 S1250000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1250000x1_S1250000x128_1_0_n_n_0_1_1128 : GatherDims S100000x128 S1250000x1 S1250000x128 where
  offsetDims := [1]
  collapsedSliceDims := [0]
  operandBatchingDims := []
  startIndicesBatchingDims := []
  startIndexMap := [0]
  indexVectorDim := 1
  sliceSizes := ![1, 128]
  wf := gather_S100000x128_S1250000x1_S1250000x128_1_0_n_n_0_1_1128_wf
def scatter_S100000x128_S1250000x1_S1250000x128_1_0_0_1 : ScatterDims S100000x128 S1250000x1 S1250000x128 where
  updateWindowDims := [1]
  insertedWindowDims := [0]
  scatterDimsToOperandDims := [0]
  indexVectorDim := 1
  wf := scatter_S100000x128_S1250000x1_S1250000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its result named.

  The program is four segments: host operations, a row-tiled layer, host operations, a second row-tiled layer with
  the output projection. Every weakly fair execution ends with each buffer that outlives a region at the contents the
  last segment boundary gives it; read at the result buffer that is the second region's output array after all its
  write-backs, and read at an argument it is the launch contents. The statement below is that run with the result
  kept beside the arguments.
-/
import proofs.«151149_j69020124447114_2_alg».proof.Proof.Gen.KernelIdeal.Frame

set_option maxRecDepth 16384

noncomputable section

namespace Cert.KernelIdeal.SageRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, faults nowhere, leaves the result buffer at the contents of the last
    segment boundary and every argument as launched. -/
theorem run_named : θ_run defs (onTc (τ := τ) (main (F := F))) ⟨m, fun _ => 0, ρ⟩ (fun r => ∀ c : Dev nD,
      r.2.mem ((c.tc : Thread nD τ).loc main_v34) = W4 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v34 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.SageRun

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.LibSageConv.lean ====
/-
  A mean-aggregation graph convolution on the extended reals, index by index.

  For a table of neighbour sums `agg : [n, K]`, a column of neighbour counts `degc : [n, 1]`, the node features
  `x : [n, K]`, two weight matrices `wl wr : [K, d]` and a bias row `br : [1, d]`, one layer is

      conv (r, j) = max ((∑ k, (agg (r, k) / max (degc (r, 0)) 1) · wl (k, j) + br (0, j)) + ∑ k, x (r, k) · wr (k, j)) 0

  and the output projection is `proj (r, j) = ∑ k, h (r, k) · w (k, j) + br (0, j)`. Entry (r, j) reads row `r` of the
  row operands only, so the layer computed on a band of rows is the band of the layer computed on the whole table:
  that is the one fact a row-tiled evaluation needs, and it needs no finiteness (nothing is redistributed, no sum is
  reordered). The second half of the file reads the vector unit's spelling of the layer — a divide by a broadcast
  column, two matrix products into zero accumulators, a broadcast bias row, a maximum with a splat — as `conv`, and
  the spelling of the projection as `proj`, for any block height.
-/
import proofs.«151149_j69020124447114_2_alg».proof.Proof.LibDense
import Idealize.ShloMosaic.Lib.ValueLayout

noncomputable section

namespace Cert.Sage

open Idealize.ShloMosaic Idealize.ShloMosaic.ValueIdx Cert.LibDense

/-- Each row of neighbour sums divided by the larger of the row's neighbour count and one. -/
def meanCol {n K : ℕ} (agg : (⟨2, ![n, K]⟩ : Shape).Idx → EReal) (degc : (⟨2, ![n, 1]⟩ : Shape).Idx → EReal) :
    (⟨2, ![n, K]⟩ : Shape).Idx → EReal :=
  fun j => Ideal.div (agg j) (max (degc (ix2 (j 0) (0 : Fin 1))) (Ideal.ofBits .f32 0x3F800000#32))

/-- One layer: the rectified `(mean · wl + br) + x · wr`. -/
def conv {n K d : ℕ} (agg : (⟨2, ![n, K]⟩ : Shape).Idx → EReal) (degc : (⟨2, ![n, 1]⟩ : Shape).Idx → EReal)
    (x : (⟨2, ![n, K]⟩ : Shape).Idx → EReal) (wl : (⟨2, ![K, d]⟩ : Shape).Idx → EReal)
    (br : (⟨2, ![1, d]⟩ : Shape).Idx → EReal) (wr : (⟨2, ![K, d]⟩ : Shape).Idx → EReal) :
    (⟨2, ![n, d]⟩ : Shape).Idx → EReal :=
  fun i => max ((prod (meanCol agg degc) wl i + br (ix2 (0 : Fin 1) (i 1))) + prod x wr i) (Ideal.ofBits .f32 0x00000000#32)

/-- The output projection `h · w + br`. -/
def proj {n K d : ℕ} (h : (⟨2, ![n, K]⟩ : Shape).Idx → EReal) (w : (⟨2, ![K, d]⟩ : Shape).Idx → EReal)
    (br : (⟨2, ![1, d]⟩ : Shape).Idx → EReal) : (⟨2, ![n, d]⟩ : Shape).Idx → EReal :=
  fun i => prod h w i + br (ix2 (0 : Fin 1) (i 1))

/-! ## An entry reads one row of the row operands and one column of the weights -/

/-- Two sets of operands that agree on row `p` / `p'` of the row operands and on column `q` / `q'` of the weights
    and the bias give the same entry of the layer. -/
theorem conv_congr {n n' K d d' : ℕ}
    (agg x : (⟨2, ![n, K]⟩ : Shape).Idx → EReal) (degc : (⟨2, ![n, 1]⟩ : Shape).Idx → EReal)
    (wl wr : (⟨2, ![K, d]⟩ : Shape).Idx → EReal) (br : (⟨2, ![1, d]⟩ : Shape).Idx → EReal)
    (agg' x' : (⟨2, ![n', K]⟩ : Shape).Idx → EReal) (degc' : (⟨2, ![n', 1]⟩ : Shape).Idx → EReal)
    (wl' wr' : (⟨2, ![K, d']⟩ : Shape).Idx → EReal) (br' : (⟨2, ![1, d']⟩ : Shape).Idx → EReal)
    (p : Fin n) (q : Fin d) (p' : Fin n') (q' : Fin d')
    (ha : ∀ k : Fin K, agg (ix2 p k) = agg' (ix2 p' k)) (hd : degc (ix2 p (0 : Fin 1)) = degc' (ix2 p' (0 : Fin 1)))
    (hx : ∀ k : Fin K, x (ix2 p k) = x' (ix2 p' k))
    (hwl : ∀ k : Fin K, wl (ix2 k q) = wl' (ix2 k q')) (hb : br (ix2 (0 : Fin 1) q) = br' (ix2 (0 : Fin 1) q'))
    (hwr : ∀ k : Fin K, wr (ix2 k q) = wr' (ix2 k q')) :
    conv agg degc x wl br wr (ix2 p q) = conv agg' degc' x' wl' br' wr' (ix2 p' q') := by
  show max ((∑ k : Fin K, Ideal.div (agg (ix2 p k)) (max (degc (ix2 p (0 : Fin 1))) (Ideal.ofBits .f32 0x3F800000#32)) * wl (ix2 k q)
        + br (ix2 (0 : Fin 1) q)) + ∑ k : Fin K, x (ix2 p k) * wr (ix2 k q)) (Ideal.ofBits .f32 0x00000000#32)
    = max ((∑ k : Fin K, Ideal.div (agg' (ix2 p' k)) (max (degc' (ix2 p' (0 : Fin 1))) (Ideal.ofBits .f32 0x3F800000#32)) * wl' (ix2 k q')
        + br' (ix2 (0 : Fin 1) q')) + ∑ k : Fin K, x' (ix2 p' k) * wr' (ix2 k q')) (Ideal.ofBits .f32 0x00000000#32)
  rw [hd, hb]
  simp only [ha, hx, hwl, hwr]

/-- The same for the projection. -/
theorem proj_congr {n n' K d d' : ℕ}
    (h : (⟨2, ![n, K]⟩ : Shape).Idx → EReal) (w : (⟨2, ![K, d]⟩ : Shape).Idx → EReal) (br : (⟨2, ![1, d]⟩ : Shape).Idx → EReal)
    (h' : (⟨2, ![n', K]⟩ : Shape).Idx → EReal) (w' : (⟨2, ![K, d']⟩ : Shape).Idx → EReal) (br' : (⟨2, ![1, d']⟩ : Shape).Idx → EReal)
    (p : Fin n) (q : Fin d) (p' : Fin n') (q' : Fin d')
    (hh : ∀ k : Fin K, h (ix2 p k) = h' (ix2 p' k)) (hw : ∀ k : Fin K, w (ix2 k q) = w' (ix2 k q'))
    (hb : br (ix2 (0 : Fin 1) q) = br' (ix2 (0 : Fin 1) q')) :
    proj h w br (ix2 p q) = proj h' w' br' (ix2 p' q') := by
  show (∑ k : Fin K, h (ix2 p k) * w (ix2 k q)) + br (ix2 (0 : Fin 1) q)
    = (∑ k : Fin K, h' (ix2 p' k) * w' (ix2 k q')) + br' (ix2 (0 : Fin 1) q')
  rw [hb]
  simp only [hh, hw]

/-! ## A column broadcast along the rows -/

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The vector unit's spelling of the layer and of the projection -/

/-- A divide by a broadcast column of `max count 1`, two matrix products into zero accumulators, a broadcast bias
    row between them and a maximum with the zero splat: the layer, for any block height `n`. The format changes on the
    way (f32 to bf16 operands) are the identity on the extended reals. -/
theorem body_conv {n K d : ℕ} (aggB xB : FVec Ideal ⟨2, ![n, K]⟩ .f32) (degB : FVec Ideal ⟨2, ![n, 1]⟩ .f32)
    (wl wr : FVec Ideal ⟨2, ![K, d]⟩ .f32) (bB : FVec Ideal ⟨2, ![1, d]⟩ .f32)
    (h1 : (⟨2, ![n, 1]⟩ : Shape).ShapeCasts ⟨2, ![n, 1]⟩) (h2 : (⟨2, ![n, K]⟩ : Shape).ShapeCasts ⟨2, ![n, K]⟩)
    (h3 : (⟨2, ![n, 1]⟩ : Shape).Broadcasts ⟨2, ![n, K]⟩) (h4 : (⟨2, ![1, d]⟩ : Shape).ShapeCasts ⟨2, ![1, d]⟩)
    (h5 : (⟨2, ![1, d]⟩ : Shape).Broadcasts ⟨2, ![n, d]⟩) (hb : FTy.bf16.bits < FTy.f32.bits) :
    maximumf (addf (addf
        (matmul (DotDims.plain n K d) none
          (truncf .bf16 (divf (shapeCast ⟨2, ![n, K]⟩ aggB h2)
            (broadcastTo ⟨2, ![n, K]⟩ (maximumf (shapeCast ⟨2, ![n, 1]⟩ degB h1) (broadcast ⟨2, ![n, 1]⟩ (Scalar.ofBits .f32 0x3F800000#32))) h3)) hb)
          (truncf .bf16 wl hb) (constant ⟨2, ![n, d]⟩ .f32 0x00000000#32))
        (broadcastTo ⟨2, ![n, d]⟩ (shapeCast ⟨2, ![1, d]⟩ bB h4) h5))
        (matmul (DotDims.plain n K d) none (truncf .bf16 xB hb) (truncf .bf16 wr hb) (constant ⟨2, ![n, d]⟩ .f32 0x00000000#32)))
      (broadcast ⟨2, ![n, d]⟩ (Scalar.ofBits .f32 0x00000000#32))
    = conv aggB degB xB wl bB wr := by
  funext i
  obtain ⟨p, q, rfl⟩ : ∃ (p : Fin n) (q : Fin d), i = ix2 p q := ⟨i 0, i 1, eq_ix2 i⟩
  rw [maximumf_apply, addf_apply, addf_apply, broadcast_apply]
  refine congrArg₂ max (congrArg₂ (· + ·) (congrArg₂ (· + ·) ?_ ?_) ?_) rfl
  · refine (matmul_plain _ _ (ix2 p q)).trans (Finset.sum_congr rfl fun k _ => congrArg₂ (· * ·) ?_ rfl)
    show Ideal.div (shapeCast ⟨2, ![n, K]⟩ aggB h2 (ix2 p k))
        (broadcastTo ⟨2, ![n, K]⟩ (maximumf (shapeCast ⟨2, ![n, 1]⟩ degB h1) (broadcast ⟨2, ![n, 1]⟩ (Scalar.ofBits .f32 0x3F800000#32))) h3 (ix2 p k))
      = Ideal.div (aggB (ix2 p k)) (max (degB (ix2 p (0 : Fin 1))) (Ideal.ofBits .f32 0x3F800000#32))
    rw [shapeCast_self, broadcastTo_a1_ab_apply, maximumf_apply, shapeCast_self, broadcast_apply]
    rfl
  · rw [shapeCast_self]
    exact broadcastTo_1b_ab_apply bB h5 p q
  · exact matmul_plain _ _ (ix2 p q)

/-- A matrix product into the zero accumulator plus a broadcast bias row: the projection. -/
theorem body_proj {n K d : ℕ} (hB : FVec Ideal ⟨2, ![n, K]⟩ .f32) (w : FVec Ideal ⟨2, ![K, d]⟩ .f32) (bB : FVec Ideal ⟨2, ![1, d]⟩ .f32)
    (h4 : (⟨2, ![1, d]⟩ : Shape).ShapeCasts ⟨2, ![1, d]⟩) (h5 : (⟨2, ![1, d]⟩ : Shape).Broadcasts ⟨2, ![n, d]⟩)
    (hb : FTy.bf16.bits < FTy.f32.bits) :
    addf (matmul (DotDims.plain n K d) none (truncf .bf16 hB hb) (truncf .bf16 w hb) (constant ⟨2, ![n, d]⟩ .f32 0x00000000#32))
        (broadcastTo ⟨2, ![n, d]⟩ (shapeCast ⟨2, ![1, d]⟩ bB h4) h5)
    = proj hB w bB := by
  funext i
  obtain ⟨p, q, rfl⟩ : ∃ (p : Fin n) (q : Fin d), i = ix2 p q := ⟨i 0, i 1, eq_ix2 i⟩
  rw [addf_apply]
  refine congrArg₂ (· + ·) (matmul_plain _ _ (ix2 p q)) ?_
  rw [shapeCast_self]
  exact broadcastTo_1b_ab_apply bB h5 p q

end Cert.Sage

end
-- ==== Proof.Layer0.lean ====
/-
  The first layer, from row bands to the whole table.

  The first region walks the node table in 20 bands of 5000 rows. At band `t` it reads rows
  `[5000 t, 5000 t + 5000)` of the neighbour sums, of the count column and of the features, the two weight
  matrices and the bias row whole, and writes the same rows of the result. A layer's entry (r, j) reads row `r` of
  the row operands only, so what band `t` writes is band `t` of the layer of the whole tables; the bands are
  disjoint and fill the table, so after the region the result array is that layer.
-/
import proofs.«151149_j69020124447114_2_alg».proof.Proof.Gen.KernelIdeal.Frame
import proofs.«151149_j69020124447114_2_alg».proof.Proof.LibSageConv
import Idealize.ShloMosaic.Lib.Pipeline.Value

set_option maxRecDepth 16384

noncomputable section

namespace Cert.KernelIdeal.SageL0

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the layer of the blocks it loads. -/
theorem pay_eq (v0 : Vec Ideal S5000x1 .f32) (v2 v9 : Vec Ideal S5000x64 .f32) (v11 v13 : Vec Ideal S64x128 .f32)
    (v16 : Vec Ideal S1x128 .f32) :
    k0_pay1 (F := Ideal) v0 v2 v9 v11 v13 v16 = Cert.Sage.conv v2 v0 v9 v11 v16 v13 :=
  Cert.Sage.body_conv v2 v9 v0 v11 v13 v16 _ _ _ _ _ _

/-- The layer of the whole tables as the region finds them. -/
def G (c : Dev nD) : S100000x128.Idx → EReal :=
  Cert.Sage.conv (V c main_v17 : S100000x64.Idx → EReal) (V c main_v18 : S100000x1.Idx → EReal)
    (V c main_arg0 : S100000x64.Idx → EReal) (V c main_arg2 : S64x128.Idx → EReal) (V c main_v19 : S1x128.Idx → EReal)
    (V c main_arg3 : S64x128.Idx → EReal)

/-- Where each window's block sits at band `t`: the row operands and the result at block row `t`, the weights and the
    bias at the origin. Decided over the 20 bands. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 20 := Nat.lt_of_lt_of_eq t.isLt N_0

/-- What band `t` writes back is band `t` of the layer of the whole tables. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S5000x1) hz, View.ld_unit_zero (S := S5000x64) hz, View.ld_unit_zero (S := S64x128) hz,
    View.ld_unit_zero (S := S1x128) hz]
  rw [pay_eq]
  obtain ⟨e00, e01, e10, e11, e20, e21, e30, e31, e40, e41, e50, e51, e60, e61⟩ := idx_facts t
  have ht := t_lt t
  funext j
  obtain ⟨p, q, rfl⟩ : ∃ (p : Fin 5000) (q : Fin 128), j = ix2 p q := ⟨j 0, j 1, eq_ix2 j⟩
  have hp := p.isLt
  have he : ((cfg0.win 6).blk t).view.emb (ix2 p q) = ix2 (⟨t.val * 5000 + p.val, by omega⟩ : Fin 100000) q := by
    funext a; apply Fin.ext
    match a with
    | ⟨0, _⟩ => show win0_6.index t (0 : Fin 2) * 5000 + 1 * p.val = t.val * 5000 + p.val; omega
    | ⟨1, _⟩ => show win0_6.index t (1 : Fin 2) * 128 + 1 * q.val = q.val; omega
  show Cert.Sage.conv (iblk0 V c 0 t) (iblk0 V c 1 t) (iblk0 V c 2 t) (iblk0 V c 3 t) (iblk0 V c 4 t) (iblk0 V c 5 t) (ix2 p q)
    = G V c (((cfg0.win 6).blk t).view.emb (ix2 p q))
  rw [he]
  refine Cert.Sage.conv_congr _ _ _ _ _ _ _ _ _ _ _ _ p q _ q (fun k => ?_) ?_ (fun k => ?_) (fun k => ?_) ?_ (fun k => ?_)
  · show V c (Pipeline.arrRef spec0 0) (((cfg0.win 0).blk t).view.emb (ix2 p k)) = _
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 64 + 1 * k.val = k.val; omega
  · show V c (Pipeline.arrRef spec0 1) (((cfg0.win 1).blk t).view.emb (ix2 p (0 : Fin 1))) = _
    refine congrArg _ (funext fun a => Fin.ext ?_)
    match a with
    | ⟨0, _⟩ => show win0_1.index t (0 : Fin 2) * 5000 + 1 * p.val = t.val * 5000 + p.val; omega
    | ⟨1, _⟩ => show win0_1.index t (1 : Fin 2) * 1 + 1 * 0 = 0; omega
  · show V c (Pipeline.arrRef spec0 2) (((cfg0.win 2).blk t).view.emb (ix2 p k)) = _
    refine congrArg _ (funext fun a => Fin.ext ?_)
    match a with
    | ⟨0, _⟩ => show win0_2.index t (0 : Fin 2) * 5000 + 1 * p.val = t.val * 5000 + p.val; omega
    | ⟨1, _⟩ => show win0_2.index t (1 : Fin 2) * 64 + 1 * k.val = k.val; omega
  · show V c (Pipeline.arrRef spec0 3) (((cfg0.win 3).blk t).view.emb (ix2 k q)) = _
    refine congrArg _ (funext fun a => Fin.ext ?_)
    match a with
    | ⟨0, _⟩ => show win0_3.index t (0 : Fin 2) * 64 + 1 * k.val = k.val; omega
    | ⟨1, _⟩ => show win0_3.index t (1 : Fin 2) * 128 + 1 * q.val = q.val; omega
  · show V c (Pipeline.arrRef spec0 4) (((cfg0.win 4).blk t).view.emb (ix2 (0 : Fin 1) q)) = _
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * q.val = q.val; omega
  · show V c (Pipeline.arrRef spec0 5) (((cfg0.win 5).blk t).view.emb (ix2 k q)) = _
    refine congrArg _ (funext fun a => Fin.ext ?_)
    match a with
    | ⟨0, _⟩ => show win0_5.index t (0 : Fin 2) * 64 + 1 * k.val = k.val; omega
    | ⟨1, _⟩ => show win0_5.index t (1 : Fin 2) * 128 + 1 * q.val = q.val; omega

/-- An index of the result table is in band `t` iff each coordinate is in the band's range on its axis. -/
theorem mem_blk (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v20).slice (win0_6.rect t)).set ↔ _
  rw [View.set_slice_whole, Rect.mem_set_unit]
  exact Iff.rfl

/-- Row `r` is in band `r / 5000`: the bands fill the table. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  have hlt : (i 0).val / 5000 < cfg0.N := by rw [hN]; omega
  obtain ⟨_, _, _, _, _, _, _, _, _, _, _, _, e60, e61⟩ := idx_facts ⟨(i 0).val / 5000, hlt⟩
  refine ⟨⟨(i 0).val / 5000, hlt⟩, flush0_6 _, ?_⟩
  rw [mem_blk]
  intro a
  match a with
  | ⟨0, _⟩ =>
    show win0_6.index ⟨(i 0).val / 5000, hlt⟩ (0 : Fin 2) * 5000 ≤ (i 0).val
      ∧ (i 0).val < win0_6.index ⟨(i 0).val / 5000, hlt⟩ (0 : Fin 2) * 5000 + 5000
    rw [e60]
    show (i 0).val / 5000 * 5000 ≤ (i 0).val ∧ (i 0).val < (i 0).val / 5000 * 5000 + 5000
    omega
  | ⟨1, _⟩ =>
    show win0_6.index ⟨(i 0).val / 5000, hlt⟩ (1 : Fin 2) * 128 ≤ (i 1).val
      ∧ (i 1).val < win0_6.index ⟨(i 0).val / 5000, hlt⟩ (1 : Fin 2) * 128 + 128
    rw [e61]
    omega

/-- After the region the result array is the layer of the tables the region found. -/
theorem final (c : Dev nD) : (dat0 V c).arrAt 6 cfg0.N = G V c :=
  (dat0 V c).arrAt_eq_of_cover 6 (G V c) (fun t _ => flushed_eq V c t) cover

end Cert.KernelIdeal.SageL0

end
-- ==== Proof.Layer1.lean ====
/-
  The second layer and the output projection, from row bands to the whole table.

  The second region walks the node table in 20 bands of 5000 rows. At band `t` it reads rows
  `[5000 t, 5000 t + 5000)` of the second neighbour sums, of the count column and of the first layer's result, three
  weight matrices and two bias rows whole, and writes the same rows of the output. An entry (r, j) of the projection of
  a layer reads row `r` of the layer, and that row reads row `r` of the row operands only: what band `t` writes is band
  `t` of the projection of the layer of the whole tables, and the bands fill the table.
-/
import proofs.«151149_j69020124447114_2_alg».proof.Proof.Gen.KernelIdeal.Frame
import proofs.«151149_j69020124447114_2_alg».proof.Proof.LibSageConv
import Idealize.ShloMosaic.Lib.Pipeline.Value

set_option maxRecDepth 16384

noncomputable section

namespace Cert.KernelIdeal.SageL1

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the projection of the layer of the blocks it loads. -/
theorem pay_eq (v0 : Vec Ideal S5000x1 .f32) (v2 v9 : Vec Ideal S5000x128 .f32) (v12 v14 : Vec Ideal S128x128 .f32)
    (v17 : Vec Ideal S1x128 .f32) (v26 : Vec Ideal S128x64 .f32) (v29 : Vec Ideal S1x64 .f32) :
    k1_pay1 (F := Ideal) v0 v2 v9 v12 v14 v17 v26 v29
      = Cert.Sage.proj (Cert.Sage.conv v2 v0 v9 v12 v17 v14) v26 v29 := by
  have e : shapeCast S5000x128 v9 shapeCasts_S5000x128_S5000x128 = v9 := shapeCast_self v9 _
  refine (Cert.Sage.body_proj _ v26 v29 _ _ _).trans (congrArg (fun h => Cert.Sage.proj h v26 v29) ?_)
  refine (Cert.Sage.body_conv v2 (shapeCast S5000x128 v9 shapeCasts_S5000x128_S5000x128) v0 v12 v14 v17 _ _ _ _ _ _).trans ?_
  rw [e]

/-- The projection of the layer of the whole tables as the region finds them. -/
def G (c : Dev nD) : S100000x64.Idx → EReal :=
  Cert.Sage.proj
    (Cert.Sage.conv (V c main_v30 : S100000x128.Idx → EReal) (V c main_v31 : S100000x1.Idx → EReal)
      (V c main_v20 : S100000x128.Idx → EReal) (V c main_arg5 : S128x128.Idx → EReal) (V c main_v32 : S1x128.Idx → EReal)
      (V c main_arg6 : S128x128.Idx → EReal))
    (V c main_arg8 : S128x64.Idx → EReal) (V c main_v33 : S1x64.Idx → EReal)

/-- Where each window's block sits at band `t`: the row operands and the output at block row `t`, the weights and the
    bias rows at the origin. Decided over the 20 bands. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

theorem t_lt (t : Fin cfg1.N) : t.val < 20 := Nat.lt_of_lt_of_eq t.isLt N_1

/-- What band `t` writes back is band `t` of the projection of the layer of the whole tables. -/
theorem flushed_eq (c : Dev nD) (t : Fin cfg1.N) :
    (dat1 V c).flushed 8 t = ((cfg1.win 8).blk t).view.read (Elt Ideal) (G V c) := by
  show (cfg1.win 8).cut (grid1.coords t) ((dat1 V c).after 8 t) = _
  rw [after1_8]
  unfold out1_8
  rw [View.canon_unit_zero hz]
  simp only [View.ld_unit_zero (S := S5000x1) hz, View.ld_unit_zero (S := S5000x128) hz, View.ld_unit_zero (S := S128x128) hz,
    View.ld_unit_zero (S := S1x128) hz, View.ld_unit_zero (S := S128x64) hz, View.ld_unit_zero (S := S1x64) hz]
  rw [pay_eq]
  obtain ⟨e00, e01, e10, e11, e20, e21, e30, e31, e40, e41, e50, e51, e60, e61, e70, e71, e80, e81⟩ := idx_facts t
  have ht := t_lt t
  funext j
  obtain ⟨p, q, rfl⟩ : ∃ (p : Fin 5000) (q : Fin 64), j = ix2 p q := ⟨j 0, j 1, eq_ix2 j⟩
  have hp := p.isLt
  have he : ((cfg1.win 8).blk t).view.emb (ix2 p q) = ix2 (⟨t.val * 5000 + p.val, by omega⟩ : Fin 100000) q := by
    funext a; apply Fin.ext
    match a with
    | ⟨0, _⟩ => show win1_8.index t (0 : Fin 2) * 5000 + 1 * p.val = t.val * 5000 + p.val; omega
    | ⟨1, _⟩ => show win1_8.index t (1 : Fin 2) * 64 + 1 * q.val = q.val; omega
  show Cert.Sage.proj (Cert.Sage.conv (iblk1 V c 0 t) (iblk1 V c 1 t) (iblk1 V c 2 t) (iblk1 V c 3 t) (iblk1 V c 4 t) (iblk1 V c 5 t))
      (iblk1 V c 6 t) (iblk1 V c 7 t) (ix2 p q)
    = G V c (((cfg1.win 8).blk t).view.emb (ix2 p q))
  rw [he]
  refine Cert.Sage.proj_congr _ _ _ _ _ _ p q _ q (fun k' => ?_) (fun k => ?_) ?_
  · refine Cert.Sage.conv_congr _ _ _ _ _ _ _ _ _ _ _ _ p k' _ k' (fun k => ?_) ?_ (fun k => ?_) (fun k => ?_) ?_ (fun k => ?_)
    · show V c (Pipeline.arrRef spec1 0) (((cfg1.win 0).blk t).view.emb (ix2 p k)) = _
      refine congrArg _ (funext fun a => Fin.ext ?_)
      match a with
      | ⟨0, _⟩ => show win1_0.index t (0 : Fin 2) * 5000 + 1 * p.val = t.val * 5000 + p.val; omega
      | ⟨1, _⟩ => show win1_0.index t (1 : Fin 2) * 128 + 1 * k.val = k.val; omega
    · show V c (Pipeline.arrRef spec1 1) (((cfg1.win 1).blk t).view.emb (ix2 p (0 : Fin 1))) = _
      refine congrArg _ (funext fun a => Fin.ext ?_)
      match a with
      | ⟨0, _⟩ => show win1_1.index t (0 : Fin 2) * 5000 + 1 * p.val = t.val * 5000 + p.val; omega
      | ⟨1, _⟩ => show win1_1.index t (1 : Fin 2) * 1 + 1 * 0 = 0; omega
    · show V c (Pipeline.arrRef spec1 2) (((cfg1.win 2).blk t).view.emb (ix2 p k)) = _
      refine congrArg _ (funext fun a => Fin.ext ?_)
      match a with
      | ⟨0, _⟩ => show win1_2.index t (0 : Fin 2) * 5000 + 1 * p.val = t.val * 5000 + p.val; omega
      | ⟨1, _⟩ => show win1_2.index t (1 : Fin 2) * 128 + 1 * k.val = k.val; omega
    · show V c (Pipeline.arrRef spec1 3) (((cfg1.win 3).blk t).view.emb (ix2 k k')) = _
      refine congrArg _ (funext fun a => Fin.ext ?_)
      match a with
      | ⟨0, _⟩ => show win1_3.index t (0 : Fin 2) * 128 + 1 * k.val = k.val; omega
      | ⟨1, _⟩ => show win1_3.index t (1 : Fin 2) * 128 + 1 * k'.val = k'.val; omega
    · show V c (Pipeline.arrRef spec1 4) (((cfg1.win 4).blk t).view.emb (ix2 (0 : Fin 1) k')) = _
      refine congrArg _ (funext fun a => Fin.ext ?_)
      match a with
      | ⟨0, _⟩ => show win1_4.index t (0 : Fin 2) * 1 + 1 * 0 = 0; omega
      | ⟨1, _⟩ => show win1_4.index t (1 : Fin 2) * 128 + 1 * k'.val = k'.val; omega
    · show V c (Pipeline.arrRef spec1 5) (((cfg1.win 5).blk t).view.emb (ix2 k k')) = _
      refine congrArg _ (funext fun a => Fin.ext ?_)
      match a with
      | ⟨0, _⟩ => show win1_5.index t (0 : Fin 2) * 128 + 1 * k.val = k.val; omega
      | ⟨1, _⟩ => show win1_5.index t (1 : Fin 2) * 128 + 1 * k'.val = k'.val; omega
  · show V c (Pipeline.arrRef spec1 6) (((cfg1.win 6).blk t).view.emb (ix2 k q)) = _
    refine congrArg _ (funext fun a => Fin.ext ?_)
    match a with
    | ⟨0, _⟩ => show win1_6.index t (0 : Fin 2) * 128 + 1 * k.val = k.val; omega
    | ⟨1, _⟩ => show win1_6.index t (1 : Fin 2) * 64 + 1 * q.val = q.val; omega
  · show V c (Pipeline.arrRef spec1 7) (((cfg1.win 7).blk t).view.emb (ix2 (0 : Fin 1) q)) = _
    refine congrArg _ (funext fun a => Fin.ext ?_)
    match a with
    | ⟨0, _⟩ => show win1_7.index t (0 : Fin 2) * 1 + 1 * 0 = 0; omega
    | ⟨1, _⟩ => show win1_7.index t (1 : Fin 2) * 64 + 1 * q.val = q.val; omega

/-- An index of the output table is in band `t` iff each coordinate is in the band's range on its axis. -/
theorem mem_blk (t : Fin cfg1.N) (i : S100000x64.Idx) :
    i ∈ ((cfg1.win 8).blk t).view.set ↔ ∀ a : Fin 2, win1_8.index t a * S5000x64.size a ≤ (i a).val
      ∧ (i a).val < win1_8.index t a * S5000x64.size a + S5000x64.size a := by
  show i ∈ ((View.whole main_v34).slice (win1_8.rect t)).set ↔ _
  rw [View.set_slice_whole, Rect.mem_set_unit]
  exact Iff.rfl

/-- Row `r` is in band `r / 5000`: the bands fill the table. -/
theorem cover (i : S100000x64.Idx) :
    ∃ t : Fin cfg1.N, (cfg1.win 8).flush t = true ∧ i ∈ ((cfg1.win 8).blk t).view.set := by
  have hi0 : (i 0).val < 100000 := (i 0).isLt
  have hi1 : (i 1).val < 64 := (i 1).isLt
  have hN : cfg1.N = 20 := N_1
  have hlt : (i 0).val / 5000 < cfg1.N := by rw [hN]; omega
  obtain ⟨_, _, _, _, _, _, _, _, _, _, _, _, _, _, _, _, e80, e81⟩ := idx_facts ⟨(i 0).val / 5000, hlt⟩
  refine ⟨⟨(i 0).val / 5000, hlt⟩, flush1_8 _, ?_⟩
  rw [mem_blk]
  intro a
  match a with
  | ⟨0, _⟩ =>
    show win1_8.index ⟨(i 0).val / 5000, hlt⟩ (0 : Fin 2) * 5000 ≤ (i 0).val
      ∧ (i 0).val < win1_8.index ⟨(i 0).val / 5000, hlt⟩ (0 : Fin 2) * 5000 + 5000
    rw [e80]
    show (i 0).val / 5000 * 5000 ≤ (i 0).val ∧ (i 0).val < (i 0).val / 5000 * 5000 + 5000
    omega
  | ⟨1, _⟩ =>
    show win1_8.index ⟨(i 0).val / 5000, hlt⟩ (1 : Fin 2) * 64 ≤ (i 1).val
      ∧ (i 1).val < win1_8.index ⟨(i 0).val / 5000, hlt⟩ (1 : Fin 2) * 64 + 64
    rw [e81]
    omega

/-- After the region the output array is the projection of the layer of the tables the region found. -/
theorem final (c : Dev nD) : (dat1 V c).arrAt 8 cfg1.N = G V c :=
  (dat1 V c).arrAt_eq_of_cover 8 (G V c) (fun t _ => flushed_eq V c t) cover

end Cert.KernelIdeal.SageL1

end
-- ==== Proof.LibSageNet.lean ====
/-
  The layer with the neighbour count as a vector and the bias as a vector, the host's spelling of it, and the whole
  two-layer network as one function.

  `layer` and `outp` are `conv` and `proj` with the count column `[n, 1]` replaced by the count vector `[n]` and the
  bias row `[1, d]` by the bias vector `[d]`: a reshape `[n] → [n, 1]` or `[d] → [1, d]` moves no entry. The host spells
  the layer with the count vector clamped below by one and broadcast `[n] → [n, 1] → [n, K]`, a quotient, two
  `dot_general`s, the bias broadcast `[d] → [1, d] → [n, d]`, and a maximum with a broadcast zero; read at an index
  that is `layer`, with no finiteness: both spellings apply the same operations to the same entries.
-/
import proofs.«151149_j69020124447114_2_alg».proof.Proof.LibSageConv

noncomputable section

namespace Cert.Sage

open Idealize.ShloMosaic Idealize.ShloMosaic.ValueIdx Cert.LibDense

/-- One layer, the neighbour count a vector `[n]`, the bias a vector `[d]`. -/
def layer {n K d : ℕ} (agg x : (⟨2, ![n, K]⟩ : Shape).Idx → EReal) (deg : (⟨1, ![n]⟩ : Shape).Idx → EReal)
    (wl wr : (⟨2, ![K, d]⟩ : Shape).Idx → EReal) (b : (⟨1, ![d]⟩ : Shape).Idx → EReal) :
    (⟨2, ![n, d]⟩ : Shape).Idx → EReal :=
  fun i => max ((∑ k : Fin K, Ideal.div (agg (ix2 (i 0) k)) (max (deg (ix1 (i 0))) (Ideal.ofBits .f32 0x3F800000#32)) * wl (ix2 k (i 1))
      + b (ix1 (i 1))) + ∑ k : Fin K, x (ix2 (i 0) k) * wr (ix2 k (i 1))) (Ideal.ofBits .f32 0x00000000#32)

/-- The output projection, the bias a vector `[d]`. -/
def outp {n K d : ℕ} (h : (⟨2, ![n, K]⟩ : Shape).Idx → EReal) (w : (⟨2, ![K, d]⟩ : Shape).Idx → EReal)
    (b : (⟨1, ![d]⟩ : Shape).Idx → EReal) : (⟨2, ![n, d]⟩ : Shape).Idx → EReal :=
  fun i => (∑ k : Fin K, h (ix2 (i 0) k) * w (ix2 k (i 1))) + b (ix1 (i 1))

/-- The two-layer network: `gs0` the first neighbour sums, `gs1` the neighbour sums as a function of the table they are
    taken of, `deg` the neighbour counts. -/
def net {n K0 K1 d : ℕ} (gs0 : (⟨2, ![n, K0]⟩ : Shape).Idx → EReal) (deg : (⟨1, ![n]⟩ : Shape).Idx → EReal)
    (gs1 : ((⟨2, ![n, K1]⟩ : Shape).Idx → EReal) → (⟨2, ![n, K1]⟩ : Shape).Idx → EReal)
    (x : (⟨2, ![n, K0]⟩ : Shape).Idx → EReal)
    (wl0 wr0 : (⟨2, ![K0, K1]⟩ : Shape).Idx → EReal) (b0 : (⟨1, ![K1]⟩ : Shape).Idx → EReal)
    (wl1 wr1 : (⟨2, ![K1, K1]⟩ : Shape).Idx → EReal) (b1 : (⟨1, ![K1]⟩ : Shape).Idx → EReal)
    (wo : (⟨2, ![K1, d]⟩ : Shape).Idx → EReal) (bo : (⟨1, ![d]⟩ : Shape).Idx → EReal) :
    (⟨2, ![n, d]⟩ : Shape).Idx → EReal :=
  outp (layer (gs1 (layer gs0 x deg wl0 wr0 b0)) (layer gs0 x deg wl0 wr0 b0) deg wl1 wr1 b1) wo bo

/-! ## A reshape that adds a trailing or a leading unit axis moves no entry -/

/-- An `[a]` vector cast to the column `[a, 1]` reads, at `(p, u)`, the vector at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- The layer over a count column and a bias row that are reshapes of a count vector and a bias vector. -/
theorem conv_cast {n K d : ℕ} (agg x : (⟨2, ![n, K]⟩ : Shape).Idx → EReal) (deg : (⟨1, ![n]⟩ : Shape).Idx → EReal)
    (wl wr : (⟨2, ![K, d]⟩ : Shape).Idx → EReal) (b : (⟨1, ![d]⟩ : Shape).Idx → EReal)
    (h1 : (⟨1, ![n]⟩ : Shape).ShapeCasts ⟨2, ![n, 1]⟩) (h2 : (⟨1, ![d]⟩ : Shape).ShapeCasts ⟨2, ![1, d]⟩) :
    conv agg (shapeCast ⟨2, ![n, 1]⟩ deg h1) x wl (shapeCast ⟨2, ![1, d]⟩ b h2) wr = layer agg x deg wl wr b := by
  funext i
  obtain ⟨p, q, rfl⟩ : ∃ (p : Fin n) (q : Fin d), i = ix2 p q := ⟨i 0, i 1, eq_ix2 i⟩
  show max ((∑ k : Fin K, Ideal.div (agg (ix2 p k)) (max (shapeCast ⟨2, ![n, 1]⟩ deg h1 (ix2 p (0 : Fin 1))) (Ideal.ofBits .f32 0x3F800000#32)) * wl (ix2 k q)
        + shapeCast ⟨2, ![1, d]⟩ b h2 (ix2 (0 : Fin 1) q)) + ∑ k : Fin K, x (ix2 p k) * wr (ix2 k q)) (Ideal.ofBits .f32 0x00000000#32)
    = max ((∑ k : Fin K, Ideal.div (agg (ix2 p k)) (max (deg (ix1 p)) (Ideal.ofBits .f32 0x3F800000#32)) * wl (ix2 k q)
        + b (ix1 q)) + ∑ k : Fin K, x (ix2 p k) * wr (ix2 k q)) (Ideal.ofBits .f32 0x00000000#32)
  rw [shapeCast_a_a1_apply, shapeCast_a_1a_apply]

/-- The projection over a bias row that is a reshape of a bias vector. -/
theorem proj_cast {n K d : ℕ} (h : (⟨2, ![n, K]⟩ : Shape).Idx → EReal) (w : (⟨2, ![K, d]⟩ : Shape).Idx → EReal)
    (b : (⟨1, ![d]⟩ : Shape).Idx → EReal) (h2 : (⟨1, ![d]⟩ : Shape).ShapeCasts ⟨2, ![1, d]⟩) :
    proj h w (shapeCast ⟨2, ![1, d]⟩ b h2) = outp h w b := by
  funext i
  obtain ⟨p, q, rfl⟩ : ∃ (p : Fin n) (q : Fin d), i = ix2 p q := ⟨i 0, i 1, eq_ix2 i⟩
  show (∑ k : Fin K, h (ix2 p k) * w (ix2 k q)) + shapeCast ⟨2, ![1, d]⟩ b h2 (ix2 (0 : Fin 1) q)
    = (∑ k : Fin K, h (ix2 p k) * w (ix2 k q)) + b (ix1 q)
  rw [shapeCast_a_1a_apply]

/-! ## The host's broadcasts read at an index -/

/-- A vector `[n]` broadcast to the column `[n, 1]` and on to `[n, K]` reads, at `(p, c)`, the vector at `p`. -/
theorem bcast_col {n K : ℕ} (v : (⟨1, ![n]⟩ : Shape).Idx → EReal)
    (h1 : (⟨1, ![n]⟩ : Shape).BroadcastsInDim ⟨2, ![n, 1]⟩ ![0])
    (h2 : (⟨2, ![n, 1]⟩ : Shape).BroadcastsInDim ⟨2, ![n, K]⟩ ![0, 1]) (p : Fin n) (c : Fin K) :
    broadcastInDim ⟨2, ![n, K]⟩ ![0, 1] h2 (broadcastInDim ⟨2, ![n, 1]⟩ ![0] h1 v) (ix2 p c) = v (ix1 p) := by
  refine (broadcastInDim_apply ![0, 1] h2 _ (ix2 p c) (ix2 p (0 : Fin 1)) fun a => ?_).trans
    (broadcastInDim_apply ![0] h1 v (ix2 p (0 : Fin 1)) (ix1 p) fun a => ?_)
  · match a with
    | ⟨0, _⟩ =>
      show p.val = if n = 1 then 0 else p.val
      split
      · have := p.isLt; omega
      · rfl
    | ⟨1, _⟩ => rfl
  · match a with
    | ⟨0, _⟩ =>
      show p.val = if n = 1 then 0 else p.val
      split
      · have := p.isLt; omega
      · rfl

/-- A vector `[d]` broadcast to the row `[1, d]` and on to `[n, d]` reads, at `(p, q)`, the vector at `q`. -/
theorem bcast_row {n d : ℕ} (v : (⟨1, ![d]⟩ : Shape).Idx → EReal)
    (h1 : (⟨1, ![d]⟩ : Shape).BroadcastsInDim ⟨2, ![1, d]⟩ ![1])
    (h2 : (⟨2, ![1, d]⟩ : Shape).BroadcastsInDim ⟨2, ![n, d]⟩ ![0, 1]) (p : Fin n) (q : Fin d) :
    broadcastInDim ⟨2, ![n, d]⟩ ![0, 1] h2 (broadcastInDim ⟨2, ![1, d]⟩ ![1] h1 v) (ix2 p q) = v (ix1 q) := by
  refine (broadcastInDim_apply ![0, 1] h2 _ (ix2 p q) (ix2 (0 : Fin 1) q) fun a => ?_).trans
    (broadcastInDim_apply ![1] h1 v (ix2 (0 : Fin 1) q) (ix1 q) fun a => ?_)
  · match a with
    | ⟨0, _⟩ => rfl
    | ⟨1, _⟩ =>
      show q.val = if d = 1 then 0 else q.val
      split
      · have := q.isLt; omega
      · rfl
  · match a with
    | ⟨0, _⟩ =>
      show q.val = if d = 1 then 0 else q.val
      split
      · have := q.isLt; omega
      · rfl

/-- A scalar broadcast to any shape reads, at any index, the scalar. -/
theorem bcast_scalar {s : Shape} (v : (⟨0, ![]⟩ : Shape).Idx → EReal) (h : (⟨0, ![]⟩ : Shape).BroadcastsInDim s ![]) (i : s.Idx) :
    broadcastInDim s ![] h v i = v ix0 :=
  broadcastInDim_apply ![] h v i ix0 fun a => a.elim0

/-! ## The host's spelling of the layer and of the projection -/

/-- The host's layer: the count vector clamped below by one and broadcast along the rows, a quotient, two
    `dot_general`s with the broadcast bias between them, a maximum with a broadcast zero. -/
theorem host_layer {n K d : ℕ} (agg x : FVec Ideal ⟨2, ![n, K]⟩ .f32) (deg : FVec Ideal ⟨1, ![n]⟩ .f32)
    (wl wr : FVec Ideal ⟨2, ![K, d]⟩ .f32) (b : FVec Ideal ⟨1, ![d]⟩ .f32)
    (g1 : (⟨0, ![]⟩ : Shape).BroadcastsInDim ⟨1, ![n]⟩ ![])
    (g2 : (⟨1, ![n]⟩ : Shape).BroadcastsInDim ⟨2, ![n, 1]⟩ ![0])
    (g3 : (⟨2, ![n, 1]⟩ : Shape).BroadcastsInDim ⟨2, ![n, K]⟩ ![0, 1])
    (g4 : (⟨1, ![d]⟩ : Shape).BroadcastsInDim ⟨2, ![1, d]⟩ ![1])
    (g5 : (⟨2, ![1, d]⟩ : Shape).BroadcastsInDim ⟨2, ![n, d]⟩ ![0, 1])
    (g6 : (⟨0, ![]⟩ : Shape).BroadcastsInDim ⟨2, ![n, d]⟩ ![]) :
    maximumf (addf (addf
        (Host.dotGeneral (DotDims.plain n K d) none
          (Host.divf agg (broadcastInDim ⟨2, ![n, K]⟩ ![0, 1] g3 (broadcastInDim ⟨2, ![n, 1]⟩ ![0] g2
            (maximumf deg (broadcastInDim ⟨1, ![n]⟩ ![] g1 (constant (F := Ideal) ⟨0, ![]⟩ .f32 0x3F800000#32))))))
          wl)
        (broadcastInDim ⟨2, ![n, d]⟩ ![0, 1] g5 (broadcastInDim ⟨2, ![1, d]⟩ ![1] g4 b)))
        (Host.dotGeneral (DotDims.plain n K d) none x wr))
      (broadcastInDim ⟨2, ![n, d]⟩ ![] g6 (constant (F := Ideal) ⟨0, ![]⟩ .f32 0x00000000#32))
    = layer agg x deg wl wr b := by
  funext i
  obtain ⟨p, q, rfl⟩ : ∃ (p : Fin n) (q : Fin d), i = ix2 p q := ⟨i 0, i 1, eq_ix2 i⟩
  rw [maximumf_apply, addf_apply, addf_apply]
  refine congrArg₂ max (congrArg₂ (· + ·) (congrArg₂ (· + ·) ?_ ?_) ?_) ?_
  · refine (dotGeneral_plain _ _ _ (ix2 p q)).trans (Finset.sum_congr rfl fun k _ => congrArg₂ (· * ·) ?_ rfl)
    show Ideal.div (agg (ix2 p k)) (broadcastInDim ⟨2, ![n, K]⟩ ![0, 1] g3 (broadcastInDim ⟨2, ![n, 1]⟩ ![0] g2
        (maximumf deg (broadcastInDim ⟨1, ![n]⟩ ![] g1 (constant (F := Ideal) ⟨0, ![]⟩ .f32 0x3F800000#32)))) (ix2 p k))
      = Ideal.div (agg (ix2 p k)) (max (deg (ix1 p)) (Ideal.ofBits .f32 0x3F800000#32))
    rw [bcast_col, maximumf_apply, bcast_scalar]
    rfl
  · exact bcast_row b g4 g5 p q
  · exact dotGeneral_plain _ _ _ (ix2 p q)
  · exact bcast_scalar _ g6 (ix2 p q)

/-- The host's projection: a `dot_general` plus the broadcast bias. -/
theorem host_outp {n K d : ℕ} (h : FVec Ideal ⟨2, ![n, K]⟩ .f32) (w : FVec Ideal ⟨2, ![K, d]⟩ .f32) (b : FVec Ideal ⟨1, ![d]⟩ .f32)
    (g4 : (⟨1, ![d]⟩ : Shape).BroadcastsInDim ⟨2, ![1, d]⟩ ![1])
    (g5 : (⟨2, ![1, d]⟩ : Shape).BroadcastsInDim ⟨2, ![n, d]⟩ ![0, 1]) :
    addf (Host.dotGeneral (DotDims.plain n K d) none h w)
        (broadcastInDim ⟨2, ![n, d]⟩ ![0, 1] g5 (broadcastInDim ⟨2, ![1, d]⟩ ![1] g4 b))
    = outp h w b := by
  funext i
  obtain ⟨p, q, rfl⟩ : ∃ (p : Fin n) (q : Fin d), i = ix2 p q := ⟨i 0, i 1, eq_ix2 i⟩
  rw [addf_apply]
  exact congrArg₂ (· + ·) (dotGeneral_plain _ _ _ (ix2 p q)) (bcast_row b g4 g5 p q)

end Cert.Sage

end
-- ==== Proof.KernelValue.lean ====
/-
  The idealized kernel's result as one function of its arguments.

  Walk the four segments. The first stretch of host operations cuts the edge list into its source and destination
  rows, counts the edges into each node (`degv`), and sums the source features into each destination (`gs64`: a row
  gather, the negative row numbers wrapped, then a scatter-add into a zero table). The first region turns those
  into the first layer `h0`. The second stretch sums rows of `h0` the same way (`gs128`), and the second region turns
  them into the second layer and its projection. The count column `[n, 1]` and the bias rows `[1, d]` the regions
  read are reshapes of the count vector and of the bias vectors, so the result is the network `net` of the
  arguments.
-/
import proofs.«151149_j69020124447114_2_alg».proof.Proof.KernelRun
import proofs.«151149_j69020124447114_2_alg».proof.Proof.Layer0
import proofs.«151149_j69020124447114_2_alg».proof.Proof.Layer1
import proofs.«151149_j69020124447114_2_alg».proof.Proof.LibSageNet
import Idealize.ShloMosaic.Lib.StableHlo.Run

set_option maxRecDepth 16384

noncomputable section

namespace Cert.KernelIdeal.SageValue

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat Cfg Window)

/-! ## The host's index rows, counts and neighbour sums -/

/-- Row 0 of the edge list: the source node of each edge. -/
def src (ei : (⟨S2x1250000, .i32⟩ : BufTy).Contents (Elt Ideal)) : (⟨S1250000, .i32⟩ : BufTy).Contents (Elt Ideal) :=
  shapeCast _ (extractStridedSlice S1x1250000 ![0, 0] ei slices_S2x1250000_S1x1250000_0_0) shapeCasts_S1x1250000_S1250000

/-- Row 1 of the edge list: the destination node of each edge. -/
def dst (ei : (⟨S2x1250000, .i32⟩ : BufTy).Contents (Elt Ideal)) : (⟨S1250000, .i32⟩ : BufTy).Contents (Elt Ideal) :=
  shapeCast _ (extractStridedSlice S1x1250000 ![1, 0] ei slices_S2x1250000_S1x1250000_1_0) shapeCasts_S1x1250000_S1250000

/-- The number of edges into each node: ones scatter-added into a zero vector at the destinations. -/
def degv (d : (⟨S1250000, .i32⟩ : BufTy).Contents (Elt Ideal)) : (⟨S100000, .f32⟩ : BufTy).Contents (Elt Ideal) :=
  Host.scatterAdd (F := Ideal) scatter_S100000_S1250000x1_S1250000_n_0_0_1
    (broadcastInDim S100000 ![] bcast_S_S100000 (constant (F := Ideal) S_ .f32 0x00000000#32))
    (broadcastInDim S1250000x1 ![0] bcast_S1250000_S1250000x1_0 d)
    (broadcastInDim S1250000 ![] bcast_S_S1250000 (constant (F := Ideal) S_ .f32 0x3F800000#32))

/-- The source row numbers with the negative ones moved up by the table's height. -/
def wrapped (s : (⟨S1250000, .i32⟩ : BufTy).Contents (Elt Ideal)) : (⟨S1250000, .i32⟩ : BufTy).Contents (Elt Ideal) :=
  select (cmpi .slt s (broadcastInDim S1250000 ![] bcast_S_S1250000 (constantI S_ 32 0#32)))
    (addi s (broadcastInDim S1250000 ![] bcast_S_S1250000 (constantI S_ 32 100000#32))) s

/-- The source rows of a 64-column table summed into the destinations. -/
def gs64 (s d : (⟨S1250000, .i32⟩ : BufTy).Contents (Elt Ideal)) (x : (⟨S100000x64, .f32⟩ : BufTy).Contents (Elt Ideal)) :
    (⟨S100000x64, .f32⟩ : BufTy).Contents (Elt Ideal) :=
  Host.scatterAdd (F := Ideal) scatter_S100000x64_S1250000x1_S1250000x64_1_0_0_1
    (broadcastInDim S100000x64 ![] bcast_S_S100000x64 (constant (F := Ideal) S_ .f32 0x00000000#32))
    (broadcastInDim S1250000x1 ![0] bcast_S1250000_S1250000x1_0 d)
    (Host.gather gather_S100000x64_S1250000x1_S1250000x64_1_0_n_n_0_1_164 x
      (broadcastInDim S1250000x1 ![0] bcast_S1250000_S1250000x1_0 (wrapped s)))

/-- The source rows of a 128-column table summed into the destinations. -/
def gs128 (s d : (⟨S1250000, .i32⟩ : BufTy).Contents (Elt Ideal)) (h : (⟨S100000x128, .f32⟩ : BufTy).Contents (Elt Ideal)) :
    (⟨S100000x128, .f32⟩ : BufTy).Contents (Elt Ideal) :=
  Host.scatterAdd (F := Ideal) scatter_S100000x128_S1250000x1_S1250000x128_1_0_0_1
    (broadcastInDim S100000x128 ![] bcast_S_S100000x128 (constant (F := Ideal) S_ .f32 0x00000000#32))
    (broadcastInDim S1250000x1 ![0] bcast_S1250000_S1250000x1_0 d)
    (Host.gather gather_S100000x128_S1250000x1_S1250000x128_1_0_n_n_0_1_1128 h
      (broadcastInDim S1250000x1 ![0] bcast_S1250000_S1250000x1_0 (wrapped s)))

variable (m : (ℓ : Loc nD τ sig) → Buf (Elt Ideal) ℓ) (ρ : Dev nD → PrngReg) (c : Dev nD)

/-! ## The buffers the first region finds -/

theorem v1_src : V1 m ρ c main_v1 = src (m ((c : Thread nD τ).loc main_arg1)) := by
  show StableHlo.after hostOps0 (W0 m ρ c) (Proc.devRef .tc main_v1) = _
  after_results_simp <;> rfl
theorem v1_dst : V1 m ρ c main_v3 = dst (m ((c : Thread nD τ).loc main_arg1)) := by
  show StableHlo.after hostOps0 (W0 m ρ c) (Proc.devRef .tc main_v3) = _
  after_results_simp <;> rfl
theorem v1_deg : V1 m ρ c main_v7 = degv (dst (m ((c : Thread nD τ).loc main_arg1))) := by
  show StableHlo.after hostOps0 (W0 m ρ c) (Proc.devRef .tc main_v7) = _
  after_results_simp <;> rfl
theorem v1_agg : V1 m ρ c main_v17 = gs64 (src (m ((c : Thread nD τ).loc main_arg1))) (dst (m ((c : Thread nD τ).loc main_arg1)))
    (m ((c : Thread nD τ).loc main_arg0)) := by
  show StableHlo.after hostOps0 (W0 m ρ c) (Proc.devRef .tc main_v17) = _
  after_results_simp <;> rfl
theorem v1_degc : V1 m ρ c main_v18
    = shapeCast _ (degv (dst (m ((c : Thread nD τ).loc main_arg1)))) shapeCasts_S100000_S100000x1 := by
  show StableHlo.after hostOps0 (W0 m ρ c) (Proc.devRef .tc main_v18) = _
  after_results_simp <;> rfl
theorem v1_bias : V1 m ρ c main_v19 = shapeCast _ (m ((c : Thread nD τ).loc main_arg4)) shapeCasts_S128_S1x128 := by
  show StableHlo.after hostOps0 (W0 m ρ c) (Proc.devRef .tc main_v19) = _
  after_results_simp <;> rfl
theorem v1_arg0 : V1 m ρ c main_arg0 = m ((c : Thread nD τ).loc main_arg0) := by
  show StableHlo.after hostOps0 (W0 m ρ c) (Proc.devRef .tc main_arg0) = _
  after_results_simp <;> rfl
theorem v1_arg2 : V1 m ρ c main_arg2 = m ((c : Thread nD τ).loc main_arg2) := by
  show StableHlo.after hostOps0 (W0 m ρ c) (Proc.devRef .tc main_arg2) = _
  after_results_simp <;> rfl
theorem v1_arg3 : V1 m ρ c main_arg3 = m ((c : Thread nD τ).loc main_arg3) := by
  show StableHlo.after hostOps0 (W0 m ρ c) (Proc.devRef .tc main_arg3) = _
  after_results_simp <;> rfl
theorem v1_arg7 : V1 m ρ c main_arg7 = m ((c : Thread nD τ).loc main_arg7) := by
  show StableHlo.after hostOps0 (W0 m ρ c) (Proc.devRef .tc main_arg7) = _
  after_results_simp <;> rfl
theorem v1_arg9 : V1 m ρ c main_arg9 = m ((c : Thread nD τ).loc main_arg9) := by
  show StableHlo.after hostOps0 (W0 m ρ c) (Proc.devRef .tc main_arg9) = _
  after_results_simp <;> rfl

/-- The first layer of the arguments. -/
def h0 : S100000x128.Idx → EReal :=
  Cert.Sage.layer
    (gs64 (src (m ((c : Thread nD τ).loc main_arg1))) (dst (m ((c : Thread nD τ).loc main_arg1))) (m ((c : Thread nD τ).loc main_arg0)))
    (m ((c : Thread nD τ).loc main_arg0)) (degv (dst (m ((c : Thread nD τ).loc main_arg1))))
    (m ((c : Thread nD τ).loc main_arg2)) (m ((c : Thread nD τ).loc main_arg3)) (m ((c : Thread nD τ).loc main_arg4))

/-- After the first region its result array is the first layer of the arguments. -/
theorem w2_h0 : W2 m ρ c (Proc.devRef .tc main_v20) = h0 m c := by
  refine (W2_arr m ρ c 6).trans ((Cert.KernelIdeal.SageL0.final (V1 m ρ) c).trans ?_)
  unfold Cert.KernelIdeal.SageL0.G h0
  rw [v1_agg, v1_degc, v1_bias, v1_arg0, v1_arg2, v1_arg3]
  exact Cert.Sage.conv_cast _ _ _ _ _ _ _ _

/-! ## The buffers the second region finds -/

theorem w2_src : W2 m ρ c (Proc.devRef .tc main_v1) = src (m ((c : Thread nD τ).loc main_arg1)) :=
  (W2_of_ne m ρ c main_v1 (by decide)).trans (v1_src m ρ c)
theorem w2_dst : W2 m ρ c (Proc.devRef .tc main_v3) = dst (m ((c : Thread nD τ).loc main_arg1)) :=
  (W2_of_ne m ρ c main_v3 (by decide)).trans (v1_dst m ρ c)
theorem w2_deg : W2 m ρ c (Proc.devRef .tc main_v7) = degv (dst (m ((c : Thread nD τ).loc main_arg1))) :=
  (W2_of_ne m ρ c main_v7 (by decide)).trans (v1_deg m ρ c)
theorem w2_arg7 : W2 m ρ c (Proc.devRef .tc main_arg7) = m ((c : Thread nD τ).loc main_arg7) :=
  (W2_of_ne m ρ c main_arg7 (by decide)).trans (v1_arg7 m ρ c)
theorem w2_arg9 : W2 m ρ c (Proc.devRef .tc main_arg9) = m ((c : Thread nD τ).loc main_arg9) :=
  (W2_of_ne m ρ c main_arg9 (by decide)).trans (v1_arg9 m ρ c)

theorem v3_agg : V3 m ρ c main_v30 = gs128 (src (m ((c : Thread nD τ).loc main_arg1))) (dst (m ((c : Thread nD τ).loc main_arg1))) (h0 m c) := by
  show StableHlo.after hostOps1 (W2 m ρ c) (Proc.devRef .tc main_v30) = _
  after_results_simp
  rw [w2_src, w2_dst, w2_h0]
  rfl
theorem v3_degc : V3 m ρ c main_v31
    = shapeCast _ (degv (dst (m ((c : Thread nD τ).loc main_arg1)))) shapeCasts_S100000_S100000x1 := by
  show StableHlo.after hostOps1 (W2 m ρ c) (Proc.devRef .tc main_v31) = _
  after_results_simp
  rw [w2_deg]
  rfl
theorem v3_h0 : V3 m ρ c main_v20 = h0 m c := by
  show StableHlo.after hostOps1 (W2 m ρ c) (Proc.devRef .tc main_v20) = _
  after_results_simp
  exact w2_h0 m ρ c
theorem v3_bias1 : V3 m ρ c main_v32 = shapeCast _ (m ((c : Thread nD τ).loc main_arg7)) shapeCasts_S128_S1x128 := by
  show StableHlo.after hostOps1 (W2 m ρ c) (Proc.devRef .tc main_v32) = _
  after_results_simp
  rw [w2_arg7]
  rfl
theorem v3_biaso : V3 m ρ c main_v33 = shapeCast _ (m ((c : Thread nD τ).loc main_arg9)) shapeCasts_S64_S1x64 := by
  show StableHlo.after hostOps1 (W2 m ρ c) (Proc.devRef .tc main_v33) = _
  after_results_simp
  rw [w2_arg9]
  rfl

/-- A weight the second region reads whole is the launch contents: the region leaves it as it found it, and it ends
    as launched. -/
theorem v3_arg5 : V3 m ρ c main_arg5 = m ((c : Thread nD τ).loc main_arg5) :=
  ((W4_arr m ρ c 3).trans (((dat1 (V3 m ρ) c).arrAt_in 3 rfl _).trans (A_eq1 (V3 m ρ) c 3))).symm.trans (W4_main_arg5 m ρ c)
theorem v3_arg6 : V3 m ρ c main_arg6 = m ((c : Thread nD τ).loc main_arg6) :=
  ((W4_arr m ρ c 5).trans (((dat1 (V3 m ρ) c).arrAt_in 5 rfl _).trans (A_eq1 (V3 m ρ) c 5))).symm.trans (W4_main_arg6 m ρ c)
theorem v3_arg8 : V3 m ρ c main_arg8 = m ((c : Thread nD τ).loc main_arg8) :=
  ((W4_arr m ρ c 6).trans (((dat1 (V3 m ρ) c).arrAt_in 6 rfl _).trans (A_eq1 (V3 m ρ) c 6))).symm.trans (W4_main_arg8 m ρ c)

/-! ## The result -/

/-- The network of the arguments, the neighbour sums and counts spelt as the host computes them. -/
def result : S100000x64.Idx → EReal :=
  Cert.Sage.net
    (gs64 (src (m ((c : Thread nD τ).loc main_arg1))) (dst (m ((c : Thread nD τ).loc main_arg1))) (m ((c : Thread nD τ).loc main_arg0)))
    (degv (dst (m ((c : Thread nD τ).loc main_arg1))))
    (gs128 (src (m ((c : Thread nD τ).loc main_arg1))) (dst (m ((c : Thread nD τ).loc main_arg1))))
    (m ((c : Thread nD τ).loc main_arg0))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))

/-- After the last segment the result buffer holds the network of the arguments. -/
theorem w4_result : W4 m ρ c (Proc.devRef .tc main_v34) = result m c := by
  refine (W4_arr m ρ c 8).trans ((Cert.KernelIdeal.SageL1.final (V3 m ρ) c).trans ?_)
  unfold Cert.KernelIdeal.SageL1.G
  rw [v3_agg, v3_degc, v3_h0, v3_bias1, v3_biaso, v3_arg5, v3_arg6, v3_arg8]
  rw [Cert.Sage.conv_cast, Cert.Sage.proj_cast]
  rfl

/-- The idealized kernel's run: the result at the network of the arguments, the arguments unchanged. -/
theorem run : θ_run defs (onTc (τ := τ) (main (F := Ideal))) ⟨m, fun _ => 0, ρ⟩ (fun r => ∀ c : Dev nD,
      r.2.mem ((c.tc : Thread nD τ).loc main_v34) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (w4_result m ρ c), (h c).2⟩)
    (Cert.KernelIdeal.SageRun.run_named m ρ)

end Cert.KernelIdeal.SageValue

end
-- ==== Proof.RefValue.lean ====
/-
  The idealized reference's result as the same function of its arguments.

  The reference computes, on the host and on whole tables, the neighbour sums (a row gather with the negative row
  numbers wrapped, then a scatter-add into a zero table), the neighbour counts (ones scatter-added at the
  destinations), the first layer, the neighbour sums of the first layer, the second layer and its projection. Its
  spelling of a layer — the count vector clamped below by one and broadcast along the rows, a quotient, two
  `dot_general`s around the broadcast bias, a maximum with a broadcast zero — is `layer` at every index, so its result
  is the network `net` of the arguments.
-/
import proofs.«151149_j69020124447114_2_alg».proof.Proof.Gen.ReferenceIdeal.Run
import proofs.«151149_j69020124447114_2_alg».proof.Proof.LibSageNet

set_option maxRecDepth 16384

noncomputable section

namespace Cert.ReferenceIdeal.SageRef

open Cert.ReferenceIdeal Cert.ReferenceIdeal.Gen Cert.ReferenceIdeal.Value
open Idealize.ShloMosaic Idealize.ShloMosaic.TcCoe Idealize.SL.Sem Idealize.ShloMosaic.ValueIdx Idealize.ShloMosaic.StableHlo

/-- Row 0 of the edge list: the source node of each edge. -/
def src (ei : (⟨S2x1250000, .i32⟩ : BufTy).Contents (Elt Ideal)) : (⟨S1250000, .i32⟩ : BufTy).Contents (Elt Ideal) :=
  shapeCast _ (extractStridedSlice S1x1250000 ![0, 0] ei slices_S2x1250000_S1x1250000_0_0) shapeCasts_S1x1250000_S1250000

/-- Row 1 of the edge list: the destination node of each edge. -/
def dst (ei : (⟨S2x1250000, .i32⟩ : BufTy).Contents (Elt Ideal)) : (⟨S1250000, .i32⟩ : BufTy).Contents (Elt Ideal) :=
  shapeCast _ (extractStridedSlice S1x1250000 ![1, 0] ei slices_S2x1250000_S1x1250000_1_0) shapeCasts_S1x1250000_S1250000

/-- The number of edges into each node: ones scatter-added into a zero vector at the destinations. -/
def degv (d : (⟨S1250000, .i32⟩ : BufTy).Contents (Elt Ideal)) : (⟨S100000, .f32⟩ : BufTy).Contents (Elt Ideal) :=
  Host.scatterAdd (F := Ideal) scatter_S100000_S1250000x1_S1250000_n_0_0_1
    (broadcastInDim S100000 ![] bcast_S_S100000 (constant (F := Ideal) S_ .f32 0x00000000#32))
    (broadcastInDim S1250000x1 ![0] bcast_S1250000_S1250000x1_0 d)
    (broadcastInDim S1250000 ![] bcast_S_S1250000 (constant (F := Ideal) S_ .f32 0x3F800000#32))

/-- The source row numbers with the negative ones moved up by the table's height. -/
def wrapped (s : (⟨S1250000, .i32⟩ : BufTy).Contents (Elt Ideal)) : (⟨S1250000, .i32⟩ : BufTy).Contents (Elt Ideal) :=
  select (cmpi .slt s (broadcastInDim S1250000 ![] bcast_S_S1250000 (constantI S_ 32 0#32)))
    (addi s (broadcastInDim S1250000 ![] bcast_S_S1250000 (constantI S_ 32 100000#32))) s

/-- The source rows of a 64-column table summed into the destinations. -/
def gs64 (s d : (⟨S1250000, .i32⟩ : BufTy).Contents (Elt Ideal)) (x : (⟨S100000x64, .f32⟩ : BufTy).Contents (Elt Ideal)) :
    (⟨S100000x64, .f32⟩ : BufTy).Contents (Elt Ideal) :=
  Host.scatterAdd (F := Ideal) scatter_S100000x64_S1250000x1_S1250000x64_1_0_0_1
    (broadcastInDim S100000x64 ![] bcast_S_S100000x64 (constant (F := Ideal) S_ .f32 0x00000000#32))
    (broadcastInDim S1250000x1 ![0] bcast_S1250000_S1250000x1_0 d)
    (Host.gather gather_S100000x64_S1250000x1_S1250000x64_1_0_n_n_0_1_164 x
      (broadcastInDim S1250000x1 ![0] bcast_S1250000_S1250000x1_0 (wrapped s)))

/-- The source rows of a 128-column table summed into the destinations. -/
def gs128 (s d : (⟨S1250000, .i32⟩ : BufTy).Contents (Elt Ideal)) (h : (⟨S100000x128, .f32⟩ : BufTy).Contents (Elt Ideal)) :
    (⟨S100000x128, .f32⟩ : BufTy).Contents (Elt Ideal) :=
  Host.scatterAdd (F := Ideal) scatter_S100000x128_S1250000x1_S1250000x128_1_0_0_1
    (broadcastInDim S100000x128 ![] bcast_S_S100000x128 (constant (F := Ideal) S_ .f32 0x00000000#32))
    (broadcastInDim S1250000x1 ![0] bcast_S1250000_S1250000x1_0 d)
    (Host.gather gather_S100000x128_S1250000x1_S1250000x128_1_0_n_n_0_1_1128 h
      (broadcastInDim S1250000x1 ![0] bcast_S1250000_S1250000x1_0 (wrapped s)))

variable (m : (ℓ : Loc nD τ sig) → Buf (Elt Ideal) ℓ) (c : Dev nD)

/-- The network of the arguments, the neighbour sums and counts spelt as the host computes them. -/
def result : S100000x64.Idx → EReal :=
  Cert.Sage.net
    (gs64 (src (m ((c.tc : Thread nD τ).loc main_arg1))) (dst (m ((c.tc : Thread nD τ).loc main_arg1))) (m ((c.tc : Thread nD τ).loc main_arg0)))
    (degv (dst (m ((c.tc : Thread nD τ).loc main_arg1))))
    (gs128 (src (m ((c.tc : Thread nD τ).loc main_arg1))) (dst (m ((c.tc : Thread nD τ).loc main_arg1))))
    (m ((c.tc : Thread nD τ).loc main_arg0))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9))

/-- The reference's composed result is the network of the arguments. -/
theorem res_eq : res_main_v59 (F := Ideal) m c = result m c := by
  unfold res_main_v59 result Cert.Sage.net
  refine (Cert.Sage.host_outp _ _ _ _ _).trans (congrArg (fun h => Cert.Sage.outp h _ _) ?_)
  refine (Cert.Sage.host_layer _ _ _ _ _ _ _ _ _ _ _ _).trans ?_
  rw [← Cert.Sage.host_layer (gs64 (src (m ((c.tc : Thread nD τ).loc main_arg1))) (dst (m ((c.tc : Thread nD τ).loc main_arg1))) (m ((c.tc : Thread nD τ).loc main_arg0))) (m ((c.tc : Thread nD τ).loc main_arg0)) (degv (dst (m ((c.tc : Thread nD τ).loc main_arg1))))
    (m ((c.tc : Thread nD τ).loc main_arg2)) (m ((c.tc : Thread nD τ).loc main_arg3)) (m ((c.tc : Thread nD τ).loc main_arg4))
    bcast_S_S100000 bcast_S100000_S100000x1_0 bcast_S100000x1_S100000x64_0_1 bcast_S128_S1x128_1 bcast_S1x128_S100000x128_0_1
    bcast_S_S100000x128]
  rfl

end Cert.ReferenceIdeal.SageRef

end
-- ==== Proof.lean ====
/-
  The kernel against its reference: a two-layer mean-aggregation graph convolution with an output projection.

  Both programs take node features `x : [100000, 64]`, an edge list `[2, 1250000]` and the weights of two layers and
  of a projection. Both count the edges into each node, sum the source rows of a table into the destination rows
  (once for `x`, once for the first layer's result), and apply to each node

      h ↦ max ((mean · Wl + b) + h · Wr) 0,   mean = (neighbour sums) / max (count) 1,

  twice, then `h ↦ h · Wout + bout`. The reference does all of it on the host on whole tables. The kernel does the
  counting, gathering and summing on the host too and the two dense stages in row bands of 5000 nodes, with the
  matrix operands rounded to a shorter float format first — on the extended reals a change of format is the
  identity. An entry of a dense stage reads one row of its row operands, so the banded evaluation is the whole-table
  one band by band, and the bands fill the table: the two programs compute one function, `net`, of the same host-side
  sums, operation by operation and in the same order. No law that needs finite values is used, so the
  precondition is never opened.

  The three frames are the generated runs; the idealization rewrote nothing, so `preserves` is trivial.
-/
import proofs.«151149_j69020124447114_2_alg».proof.Defs
import proofs.«151149_j69020124447114_2_alg».proof.Proof.Gen.Kernel
import proofs.«151149_j69020124447114_2_alg».proof.Proof.Gen.Kernel.Frame
import proofs.«151149_j69020124447114_2_alg».proof.Proof.Gen.KernelIdeal
import proofs.«151149_j69020124447114_2_alg».proof.Proof.Gen.KernelIdeal.Frame
import proofs.«151149_j69020124447114_2_alg».proof.Proof.Gen.ReferenceIdeal
import proofs.«151149_j69020124447114_2_alg».proof.Proof.Gen.ReferenceIdeal.Run
import proofs.«151149_j69020124447114_2_alg».proof.Proof.Gen.Pre_finite_inputs
import proofs.«151149_j69020124447114_2_alg».proof.Proof.KernelValue
import proofs.«151149_j69020124447114_2_alg».proof.Proof.RefValue
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end at the network of those arguments: the kernel by its
    run read band by band, the reference by its run read operation by operation; the host-side counts and sums are the
    same terms in both. -/
theorem algebraic : Cert.algebraic_KernelIdeal_ReferenceIdeal := by
  intro m ρ m' ρ' _ hagree
  refine ⟨fun c => Cert.KernelIdeal.SageValue.result m c, Cert.KernelIdeal.SageValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.SageRef.res_eq]
  unfold Cert.ReferenceIdeal.SageRef.result Cert.KernelIdeal.SageValue.result
  obtain ⟨e0, e1, e2, e3, e4, e5, e6, e7, e8, e9⟩ := hagree c
  rw [e0, e1, e2, e3, e4, e5, e6, e7, e8, e9]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
